-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x10 : Shape := ⟨2, ![2097152, 10]⟩
abbrev S10x10 : Shape := ⟨2, ![10, 10]⟩
abbrev S20x20 : Shape := ⟨2, ![20, 20]⟩
abbrev S_ : Shape := ⟨0, ![]⟩

class Facts : Prop where
  bcast_S_S2097152x10 : S_.BroadcastsInDim S2097152x10 (![] : Fin 0 → Fin S2097152x10.rank)
  reducesTo_S2097152x10_S_d0_1 : S2097152x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S20x20 : S_.BroadcastsInDim S20x20 (![] : Fin 0 → Fin S20x20.rank)
  reducesTo_S20x20_S_d0_1 : S20x20.ReducesTo [0, 1] S_

variable [Facts]

def fn_part1 {F : FTy → Type} [FloatOps F] (main_arg4 : FVec F S20x20 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S20x20 .f32 := Host.absf main_arg4
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  main_v23

def fn {F : FTy → Type} [FloatOps F] (main_arg0 : FVec F S2097152x10 .f32) (main_arg1 : FVec F S10x10 .f32) (main_arg2 : FVec F S10x10 .f32) (main_arg3 : FVec F S10x10 .f32) (main_arg4 : FVec F S20x20 .f32) : IVec S_ 1 :=
  let main_v0 : FVec F S2097152x10 .f32 := Host.absf main_arg0
  let main_cst : FVec F S_ .f32 := constant S_ .f32 0x7F800000#32
  let main_v1 : FVec F S2097152x10 .f32 := broadcastInDim S2097152x10 ![] bcast_S_S2097152x10 main_cst
  let main_v2 : IVec S2097152x10 1 := cmpf .olt main_v0 main_v1
  let main_c : IVec S_ 1 := constantI S_ 1 1#1
  let main_v3 : IVec S_ 1 := (fun x v => Host.reduce IntOp.andi x v reducesTo_S2097152x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_v13 main_v16
-- ==== Kernel.lean ====
abbrev S2097152x10 : Shape := ⟨2, ![2097152, 10]⟩
abbrev S10x10 : Shape := ⟨2, ![10, 10]⟩
abbrev S20x20 : Shape := ⟨2, ![20, 20]⟩

abbrev nBuf : Space → Nat
  | .hbm => 7
  | .vmem => 3
  | .smem => 0
  | _ => 0

abbrev bufTy : (tb : Table) → Fin (tcTables nBuf tb) → BufTy
  | .hbm, ⟨0, _⟩ => ⟨S2097152x10, .f32⟩
  | .hbm, ⟨1, _⟩ => ⟨S10x10, .f32⟩
  | .hbm, ⟨2, _⟩ => ⟨S10x10, .f32⟩
  | .hbm, ⟨3, _⟩ => ⟨S10x10, .f32⟩
  | .hbm, ⟨4, _⟩ => ⟨S20x20, .f32⟩
  | .hbm, ⟨5, _⟩ => ⟨S10x10, .f32⟩
  | .hbm, ⟨6, _⟩ => ⟨S2097152x10, .f32⟩
  | .local _ .vmem, ⟨0, _⟩ => ⟨S10x10, .f32⟩
  | .local _ .vmem, ⟨1, _⟩ => ⟨S10x10, .f32⟩
  | .local _ .vmem, ⟨2, _⟩ => ⟨S10x10, .f32⟩
  | _, _ => ⟨S2097152x10, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S10x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  inb_S10x10_S10x10_0_0 : ∀ a, (![0, 0] : Fin 2 → Nat) a + S10x10.size a ≤ S10x10.size a
  h_S10x10 : 0 < S10x10.numel
  dot_S10x10_S10x10_S10x10_1_0_0_1_n_n_wf : DotDims.WF S10x10 S10x10 S10x10 [1] [0] [0] [1] [] []
  dot_S2097152x10_S10x10_S2097152x10_1_0_0_1_n_n_wf : DotDims.WF S2097152x10 S10x10 S2097152x10 [1] [0] [0] [1] [] []
  hstage0_0 : ∀ j, (stage0_0 j).IsWhole
  hstage0_1 : ∀ j, (stage0_1 j).IsWhole
  hstage0_2 : ∀ j, (stage0_2 j).IsWhole

variable [Facts₀]

def dot_S10x10_S10x10_S10x10_1_0_0_1_n_n : DotDims S10x10 S10x10 S10x10 where
  lhsContracting := [1]
  rhsContracting := [0]
  lhsNonContracting := [0]
  rhsNonContracting := [1]
  lhsBatch := []
  rhsBatch := []
  wf := dot_S10x10_S10x10_S10x10_1_0_0_1_n_n_wf
def dot_S2097152x10_S10x10_S2097152x10_1_0_0_1_n_n : DotDims S2097152x10 S10x10 S2097152x10 where
  lhsContracting := [1]
  rhsContracting := [0]
  lhsNonContracting := [0]
  rhsNonContracting := [1]
  lhsBatch := []
  rhsBatch := []
  wf := dot_S2097152x10_S10x10_S2097152x10_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x10 : Shape := ⟨2, ![2097152, 10]⟩
abbrev S10x10 : Shape := ⟨2, ![10, 10]⟩
abbrev S20x20 : Shape := ⟨2, ![20, 20]⟩
abbrev S4096x10 : Shape := ⟨2, ![4096, 10]⟩

abbrev nBuf : Space → Nat
  | .hbm => 7
  | .vmem => 5
  | .smem => 0
  | _ => 0

abbrev bufTy : (tb : Table) → Fin (tcTables nBuf tb) → BufTy
  | .hbm, ⟨0, _⟩ => ⟨S2097152x10, .f32⟩
  | .hbm, ⟨1, _⟩ => ⟨S10x10, .f32⟩
  | .hbm, ⟨2, _⟩ => ⟨S10x10, .f32⟩
  | .hbm, ⟨3, _⟩ => ⟨S10x10, .f32⟩
  | .hbm, ⟨4, _⟩ => ⟨S20x20, .f32⟩
  | .hbm, ⟨5, _⟩ => ⟨S10x10, .f32⟩
  | .hbm, ⟨6, _⟩ => ⟨S2097152x10, .f32⟩
  | .local _ .vmem, ⟨0, _⟩ => ⟨S4096x10, .f32⟩
  | .local _ .vmem, ⟨1, _⟩ => ⟨S4096x10, .f32⟩
  | .local _ .vmem, ⟨2, _⟩ => ⟨S10x10, .f32⟩
  | .local _ .vmem, ⟨3, _⟩ => ⟨S4096x10, .f32⟩
  | .local _ .vmem, ⟨4, _⟩ => ⟨S4096x10, .f32⟩
  | _, _ => ⟨S2097152x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x10_S4096x10_0_0 : ∀ a, (![0, 0] : Fin 2 → Nat) a + S4096x10.size a ≤ S4096x10.size a
  h_S4096x10 : 0 < S4096x10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  dot_S10x10_S10x10_S10x10_1_0_0_1_n_n_wf : DotDims.WF S10x10 S10x10 S10x10 [1] [0] [0] [1] [] []
  dot_S4096x10_S10x10_S4096x10_1_0_0_1_n_n_wf : DotDims.WF S4096x10 S10x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S2097152x10.size a
  hwx0_0 : ∀ i : grid0.Coords, EltTy.bits .f32 = 32 ∨ (Rect.block (s := S2097152x10) S4096x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x10.size a ≤ S10x10.size a
  hwx0_1 : ∀ i : grid0.Coords, EltTy.bits .f32 = 32 ∨ (Rect.block (s := S10x10) S10x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x10.size a ≤ S2097152x10.size a
  hwx0_2 : ∀ i : grid0.Coords, EltTy.bits .f32 = 32 ∨ (Rect.block (s := S2097152x10) S4096x10.size (cc0_transform_2 i) (hinb0_2 i)).WholeWords (EltTy.packing .f32)

variable [Facts₀]

def dot_S10x10_S10x10_S10x10_1_0_0_1_n_n : DotDims S10x10 S10x10 S10x10 where
  lhsContracting := [1]
  rhsContracting := [0]
  lhsNonContracting := [0]
  rhsNonContracting := [1]
  lhsBatch := []
  rhsBatch := []
  wf := dot_S10x10_S10x10_S10x10_1_0_0_1_n_n_wf
def dot_S4096x10_S10x10_S4096x10_1_0_0_1_n_n : DotDims S4096x10 S10x10 S4096x10 where
  lhsContracting := [1]
  rhsContracting := [0]
  lhsNonContracting := [0]
  rhsNonContracting := [1]
  lhsBatch := []
  rhsBatch := []
  wf := dot_S4096x10_S10x10_S4096x10_1_0_0_1_n_n_wf

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibDotGeneral2.lean ====
/-
  The host's `dot_general` of two rank-2 arrays with one contracted axis on each side and no batch axis, read at an
  entry of the result, at the ideal values. There the host's product and the matrix unit's product into a zero
  accumulator are one function of their operands (both are the sum, over the contraction index, of the products of the
  operands' entries; no rounding and no order of summation is left), so each arrangement of the contracted axes reads
  as the plain sum over the contracted coordinate:

  * `dotGeneral_nn_apply`: rows by columns, `out[a, b] = Σ_c A[a, c] · B[c, b]`;
  * `dotGeneral_tn_apply`: the left operand contracted on its rows, `out[a, b] = Σ_c A[c, a] · B[c, b]`;
  * `dotGeneral_nt_apply`: the right operand contracted on its columns, `out[a, b] = Σ_c A[a, c] · B[b, c]`;
  * `dotGeneral_tt_apply`: both, `out[a, b] = Σ_c A[c, a] · B[b, c]`.
-/
import Idealize.ShloMosaic.PureOps.Ideal.Laws
import Idealize.ShloMosaic.Lib.ValueIdx
import proofs.«164632_g2000006822109569_pallasbulk_520_7_alg».proof.Proof.LibMatmul2

namespace LibDotGeneral2

open Idealize.ShloMosaic Idealize.ShloMosaic.ValueIdx

/-- At the ideal values the host's `dot_general` is the matrix product with the same dimension numbers into a zero
    accumulator, whatever the precision and schedule keys: both are the contraction's sum. -/
theorem dotGeneral_eq_matmul_zero {sl sr so : Shape} {φ₁ φ₂ : FTy} (d : DotDims sl sr so)
    (prec prec' : Option ContractPrecision) (sched : HostSchedule) (lhs : FVec Ideal sl φ₁) (rhs : FVec Ideal sr φ₂) :
    FloatOps.dotGeneral d prec sched lhs rhs = FloatOps.matmul d prec' lhs rhs (constant so .f32 0x00000000#32) :=
  funext fun j =>
    (Ideal.dotGeneral_apply d prec sched lhs rhs j).trans (Ideal.matmul_constant_zero_apply d prec' lhs rhs j).symm

variable {m k n : Nat} {φ₁ φ₂ : FTy}

/-- Rows by columns. -/
theorem dotGeneral_nn_apply
    (w : DotDims.WF ⟨2, ![m, k]⟩ ⟨2, ![k, n]⟩ ⟨2, ![m, n]⟩ [1] [0] [0] [1] [] [])
    (prec : Option ContractPrecision) (sched : HostSchedule)
    (A : FVec Ideal ⟨2, ![m, k]⟩ φ₁) (B : FVec Ideal ⟨2, ![k, n]⟩ φ₂) (a : Fin m) (b : Fin n) :
    FloatOps.dotGeneral (⟨[1], [0], [0], [1], [], [], w⟩ : DotDims _ _ _) prec sched A B (ix2 a b)
      = ∑ c : Fin k, A (ix2 a c) * B (ix2 c b) := by
  rw [dotGeneral_eq_matmul_zero _ prec prec sched]
  exact LibMatmul2.matmul_nn_apply w prec A B a b

/-- The left operand contracted on its rows. -/
theorem dotGeneral_tn_apply
    (w : DotDims.WF ⟨2, ![k, m]⟩ ⟨2, ![k, n]⟩ ⟨2, ![m, n]⟩ [0] [0] [1] [1] [] [])
    (prec : Option ContractPrecision) (sched : HostSchedule)
    (A : FVec Ideal ⟨2, ![k, m]⟩ φ₁) (B : FVec Ideal ⟨2, ![k, n]⟩ φ₂) (a : Fin m) (b : Fin n) :
    FloatOps.dotGeneral (⟨[0], [0], [1], [1], [], [], w⟩ : DotDims _ _ _) prec sched A B (ix2 a b)
      = ∑ c : Fin k, A (ix2 c a) * B (ix2 c b) := by
  rw [dotGeneral_eq_matmul_zero _ prec prec sched]
  exact LibMatmul2.matmul_tn_apply w prec A B a b

/-- The right operand contracted on its columns. -/
theorem dotGeneral_nt_apply
    (w : DotDims.WF ⟨2, ![m, k]⟩ ⟨2, ![n, k]⟩ ⟨2, ![m, n]⟩ [1] [1] [0] [0] [] [])
    (prec : Option ContractPrecision) (sched : HostSchedule)
    (A : FVec Ideal ⟨2, ![m, k]⟩ φ₁) (B : FVec Ideal ⟨2, ![n, k]⟩ φ₂) (a : Fin m) (b : Fin n) :
    FloatOps.dotGeneral (⟨[1], [1], [0], [0], [], [], w⟩ : DotDims _ _ _) prec sched A B (ix2 a b)
      = ∑ c : Fin k, A (ix2 a c) * B (ix2 b c) := by
  rw [dotGeneral_eq_matmul_zero _ prec prec sched]
  exact LibMatmul2.matmul_nt_apply w prec A B a b

/-- The left operand contracted on its rows and the right one on its columns. -/
theorem dotGeneral_tt_apply
    (w : DotDims.WF ⟨2, ![k, m]⟩ ⟨2, ![n, k]⟩ ⟨2, ![m, n]⟩ [0] [1] [1] [0] [] [])
    (prec : Option ContractPrecision) (sched : HostSchedule)
    (A : FVec Ideal ⟨2, ![k, m]⟩ φ₁) (B : FVec Ideal ⟨2, ![n, k]⟩ φ₂) (a : Fin m) (b : Fin n) :
    FloatOps.dotGeneral (⟨[0], [1], [1], [0], [], [], w⟩ : DotDims _ _ _) prec sched A B (ix2 a b)
      = ∑ c : Fin k, A (ix2 c a) * B (ix2 b c) := by
  rw [dotGeneral_eq_matmul_zero _ prec prec sched]
  exact LibMatmul2.matmul_tt_apply w prec A B a b

end LibDotGeneral2
-- ==== Proof.Spec.lean ====
/-
  What both programs compute, as one function of the argument arrays: the rows of `x` (2097152 rows of 10 entries)
  times the folded weight `a · b` (two 10 × 10 matrices multiplied first),

    result[i, j] = Σ_k x[i, k] · (Σ_l a[k, l] · b[l, j]).

  The kernel folds the weight in its one gridless matrix product and multiplies the rows by it on the host; the
  reference folds it on the host and multiplies 512 row tiles of 4096 rows by it. Read at an entry, at the ideal
  values, every one of the four products is the plain sum over its contracted coordinate, so both programs are this
  function term for term and no law of the extended reals is needed to join them.
-/
import Idealize.ShloMosaic.PureOps.Ideal
import Idealize.ShloMosaic.Lib.ValueIdx

noncomputable section

namespace FoldedProduct

open Idealize.ShloMosaic Idealize.ShloMosaic.ValueIdx

/-- The rows' shape and the weights' shape. -/
abbrev SX : Shape := ⟨2, ![2097152, 10]⟩
abbrev SW : Shape := ⟨2, ![10, 10]⟩

/-- An entry of the folded weight: `(a · b)[k, j] = Σ_l a[k, l] · b[l, j]`. -/
def foldAt (a b : FVec Ideal SW .f32) (k j : Fin 10) : EReal := ∑ l : Fin 10, a (ix2 k l) * b (ix2 l j)

/-- The result array: row `i` of `x` against column `j` of the folded weight. -/
def result (x : FVec Ideal SX .f32) (a b : FVec Ideal SW .f32) : FVec Ideal SX .f32 :=
  fun i => ∑ k : Fin 10, x (ix2 (i 0) k) * foldAt a b k (i 1)

end FoldedProduct

end
-- ==== Proof.KernelValue.lean ====
/-
  The kernel's result as a function of its arguments.

  The kernel has one gridless region and one host line after it. The region's single point loads the two 10 × 10
  weights whole, multiplies them into a zero accumulator and stores the product whole: its one block is the whole
  output array, read and written through zero offsets, so after the region the intermediate array holds the matrix
  product of the two weight arguments (`folded`). The host line then multiplies the 2097152 × 10 rows by that array.
  So the result buffer ends at `dot_general rows (matmul a b 0)` (`run`, at any float instance), and at the ideal
  values that term, read at an entry, is `Σ_k x[i, k] · Σ_l a[k, l] · b[l, j]` (`tail_result`).
-/
import proofs.«164632_g2000006822109569_pallasbulk_520_7_alg».proof.Proof.Gen.KernelIdeal.Frame
import proofs.«164632_g2000006822109569_pallasbulk_520_7_alg».proof.Proof.LibMatmul2
import proofs.«164632_g2000006822109569_pallasbulk_520_7_alg».proof.Proof.LibDotGeneral2
import proofs.«164632_g2000006822109569_pallasbulk_520_7_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The body's accesses start at row 0, column 0. -/
theorem hz : (![0, 0] : Fin 2 → Nat) = fun _ => 0 := funext fun a => by fin_cases a <;> rfl

/-- The folded weight: the region's matrix product of the two weight arguments. -/
abbrev folded (c : Dev nD) : Buf (Elt F) ((c : Thread nD τ).loc main_v0) :=
  k0_pay1 (m ((c : Thread nD τ).loc main_arg1)) (m ((c : Thread nD τ).loc main_arg3))

/-- The first weight's block at the region's one point is the whole argument. -/
theorem iblk0 (c : Dev nD) (t : Fin cfg0.N) : iblk m c 0 t = m ((c : Thread nD τ).loc main_arg1) := by
  obtain rfl := fin_N0 t
  unfold iblk
  have hz' : (fun a => win0_0.index t0_0 a * main_arg1.ty.shape.size a) = fun _ => 0 :=
    funext fun a => by fin_cases a <;> decide
  exact Memref.read_access_unit_zero (Elt F) main_arg1 hz' (fun a => by rw [congrFun hz' a]; simp) _

/-- So is the second weight's. -/
theorem iblk1 (c : Dev nD) (t : Fin cfg0.N) : iblk m c 1 t = m ((c : Thread nD τ).loc main_arg3) := by
  obtain rfl := fin_N0 t
  unfold iblk
  have hz' : (fun a => win0_1.index t0_0 a * main_arg3.ty.shape.size a) = fun _ => 0 :=
    funext fun a => by fin_cases a <;> decide
  exact Memref.read_access_unit_zero (Elt F) main_arg3 hz' (fun a => by rw [congrFun hz' a]; simp) _

/-- What the one point writes back is the folded weight, read through the whole-array block. -/
theorem flushed_eq (c : Dev nD) (t : Fin cfg0.N) :
    (dats m 0 c).flushed 2 t = ((cfg0.win 2).blk t).view.read (Elt F) (folded m c) := by
  show (cfg0.win 2).cut (grid0.coords t) ((dats m 0 c).after 2 t) = _
  rw [after0_2]
  unfold out0_2
  rw [View.canon_unit_zero hz]
  simp only [View.ld_unit_zero (S := S10x10) hz]
  rw [iblk0, iblk1]
  obtain rfl := fin_N0 t
  have hz' : (fun a => win0_2.index t0_0 a * main_v0.ty.shape.size a) = fun _ => 0 :=
    funext fun a => by fin_cases a <;> decide
  exact (Memref.read_access_unit_zero (Elt F) main_v0 hz' (fun a => by rw [congrFun hz' a]; simp) (folded m c)).symm

/-- The one block covers the intermediate array, so after the region it holds the folded weight. -/
theorem final_w (c : Dev nD) : (dats m 0 c).arrAt 2 cfg0.N = folded m c :=
  (dats m 0 c).arrAt_eq_of_cover 2 (folded m c) (fun t _ => flushed_eq m c t) fun i =>
    ⟨t0_0, flush0_2 t0_0, by
      show i ∈ ((View.whole main_v0).slice (win0_2.rect t0_0)).set
      rw [View.set_slice_whole, Rect.mem_set_unit]
      intro a
      have h0 : (i 0 : Nat) < 10 := (i 0).isLt
      have h1 : (i 1 : Nat) < 10 := (i 1).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 10 from by decide +kernel]
        omega
      | ⟨1, _⟩ =>
        show win0_2.index t0_0 1 * win0_2.size 1 ≤ (i 1 : Nat)
          ∧ (i 1 : Nat) < win0_2.index t0_0 1 * win0_2.size 1 + win0_2.xsize (grid0.coords t0_0) 1
        rw [show win0_2.index t0_0 1 * win0_2.size 1 = 0 from by decide +kernel,
          show win0_2.xsize (grid0.coords t0_0) 1 = 10 from by decide +kernel]
        omega⟩

/-- The host line after the region: the rows, untouched by the region, times the array the region left. -/
theorem tail_eq (c : Dev nD) :
    Pipeline.afterTail₀ cfgs (dats m) 0 (V0 m) [hostOps1] c main_v1
      = Host.dotGeneral dot_S2097152x10_S10x10_S2097152x10_1_0_0_1_n_n none
          (m ((c : Thread nD τ).loc main_arg0)) (folded m c) := by
  unfold Pipeline.afterTail₀
  show StableHlo.after hostOps1 _ (Proc.devRef .tc main_v1) = _
  after_results
  have e0 : Pipeline.withArrays (cfgs 0).spec c (V0 m c) (fun w => (dats m 0 c).arrAt w (cfgs 0).N)
      (Proc.tc.devRef main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have e1 : Pipeline.withArrays (cfgs 0).spec c (V0 m c) (fun w => (dats m 0 c).arrAt w (cfgs 0).N)
      (Proc.tc.devRef main_v0) = folded m c :=
    (Pipeline.withArrays_arr spec0 launch0.win.arr_inj c _ _ 2).trans (final_w m c)
  rw [e0, e1]

/-- The run, read: the result buffer at the rows times the folded weight, every argument unchanged. -/
theorem run : θ_run defs (onTc (τ := τ) (main (F := F))) ⟨m, fun _ => 0, ρ⟩ fun r => ∀ c : Dev nD,
      r.2.mem ((c : Thread nD τ).loc main_v1)
        = Host.dotGeneral dot_S2097152x10_S10x10_S2097152x10_1_0_0_1_n_n none
            (m ((c : Thread nD τ).loc main_arg0)) (folded m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v1 (Pipeline.mem_restRefs_of main_v1 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

/-! ## At the ideal values -/

open Idealize.ShloMosaic.ValueIdx

/-- An entry of the region's product is the sum over the weights' shared coordinate. -/
theorem folded_apply (a b : Vec Ideal S10x10 .f32) (k j : Fin 10) :
    k0_pay1 a b (ix2 k j) = FoldedProduct.foldAt a b k j := by
  unfold k0_pay1 FoldedProduct.foldAt
  exact LibMatmul2.matmul_nn_apply _ none a b k j

/-- The host's product of the rows with the region's product is the specification, entry by entry. -/
theorem tail_result (x : FVec Ideal S2097152x10 .f32) (a b : Vec Ideal S10x10 .f32) :
    Host.dotGeneral dot_S2097152x10_S10x10_S2097152x10_1_0_0_1_n_n none x (k0_pay1 a b)
      = FoldedProduct.result x a b := by
  funext i
  obtain ⟨p, q, rfl⟩ : ∃ (p : Fin 2097152) (q : Fin 10), i = ix2 p q := ⟨i 0, i 1, eq_ix2 i⟩
  refine (LibDotGeneral2.dotGeneral_nn_apply _ none .single x (k0_pay1 a b) p q).trans ?_
  exact Finset.sum_congr rfl fun k _ => congrArg (x (ix2 p k) * ·) (folded_apply a b k q)

end Cert.KernelIdeal.Hand

end
-- ==== Proof.RefValue.lean ====
/-
  The reference's result as a function of its arguments.

  The reference multiplies the two 10 × 10 weights on the host first, then one region walks 512 row tiles: at point
  `t` it loads rows `4096·t … 4096·t + 4095` of `x` (all 10 columns) and the whole folded weight, multiplies the
  tile by the weight into a zero accumulator, and stores the 4096 × 10 product whole to the same rows of the output.
  Read at an entry, the tile's product is the sum over the shared coordinate of the row of `x` the tile's row stands
  for against the folded weight's column (`tile_at`, `row_read`, `weight_read`), which is the specification at the
  array index the tile entry is stored to (`flushed_eq`); the 512 tiles cover the 2097152 rows (`cover`), so the result
  array ends holding the specification (`final`, `run`).
-/
import proofs.«164632_g2000006822109569_pallasbulk_520_7_alg».proof.Proof.Gen.ReferenceIdeal.Frame
import proofs.«164632_g2000006822109569_pallasbulk_520_7_alg».proof.Proof.Gen.ReferenceIdeal.Value
import proofs.«164632_g2000006822109569_pallasbulk_520_7_alg».proof.Proof.LibMatmul2
import proofs.«164632_g2000006822109569_pallasbulk_520_7_alg».proof.Proof.LibDotGeneral2
import proofs.«164632_g2000006822109569_pallasbulk_520_7_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Value

variable (m : (ℓ : Loc nD τ sig) → Buf (Elt Ideal) ℓ) (ρ : Dev nD → PrngReg)

/-- The body's accesses start at row 0, column 0. -/
theorem hz : (![0, 0] : Fin 2 → Nat) = fun _ => 0 := funext fun a => by fin_cases a <;> rfl

/-- The folded weight as the region finds it: the host's product of the two weight arguments. -/
theorem weight_entry (c : Dev nD) :
    (V m c main_v0 : S10x10.Idx → EReal)
      = Host.dotGeneral (F := Ideal) (φ₁ := .f32) (φ₂ := .f32) dot_S10x10_S10x10_S10x10_1_0_0_1_n_n none
          (m ((c : Thread nD τ).loc main_arg1)) (m ((c : Thread nD τ).loc main_arg3)) := by
  dsimp only [Gen.V, Gen.hostOps0]
  after_results

/-- The printed index maps over the 512 points: the rows' and the output's tiles move with the point along the rows
    and stay at column block 0; the weight's one block stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of a tile's product: the tile's row against the weight's column. -/
theorem tile_entry (x0 : Vec Ideal S4096x10 .f32) (x1 : Vec Ideal S10x10 .f32) (r : Fin 4096) (q : Fin 10) :
    k0_pay1 x0 x1 (ix2 r q) = ∑ k : Fin 10, x0 (ix2 r k) * x1 (ix2 k q) := by
  unfold k0_pay1
  simp only [shapeCast_self]
  exact LibMatmul2.matmul_nn_apply _ none x0 x1 r q

/-- The same at any index of the tile. -/
theorem tile_at (x0 : Vec Ideal S4096x10 .f32) (x1 : Vec Ideal S10x10 .f32) (y : S4096x10.Idx) :
    k0_pay1 x0 x1 y = ∑ k : Fin 10, x0 (ix2 (n0 := 4096) (y 0) k) * x1 (ix2 (n1 := 10) k (y 1)) := by
  exact (congrArg (k0_pay1 x0 x1) (eq_ix2 y)).trans (tile_entry x0 x1 (y 0) (y 1))

/-- Row `r` of the rows' tile at point `t` is row `4096·t + r` of the argument. -/
theorem row_read (c : Dev nD) (t : Fin cfg0.N) (r : Fin 4096) (k : Fin 10) (i : S2097152x10.Idx)
    (h0 : (i 0).val = t.val * 4096 + r.val) (h1 : (i 1).val = k.val) :
    (iblk m c 0 t : Vec Ideal S4096x10 .f32) (ix2 r k)
      = (m ((c : Thread nD τ).loc main_arg0) : S2097152x10.Idx → EReal) i := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 4096 + 1 * r.val = (i 0).val; rw [e0, h0]; omega
  | ⟨1, _⟩ => show win0_0.index t 1 * 10 + 1 * k.val = (i 1).val; rw [e1, h1]; omega

/-- The weight's block at every point is the whole folded weight, whose entry is the sum over the two weights' shared
    coordinate. -/
theorem weight_read (c : Dev nD) (t : Fin cfg0.N) (k q : Fin 10) :
    (iblk m c 1 t : Vec Ideal S10x10 .f32) (ix2 k q)
      = FoldedProduct.foldAt (m ((c : Thread nD τ).loc main_arg1)) (m ((c : Thread nD τ).loc main_arg3)) k q := by
  obtain ⟨-, -, e2, e3, -⟩ := idx_facts t
  unfold iblk
  rw [View.read_apply]
  show V m c main_v0 _ = _
  have he : ((cfg0.win 1).blk t).view.emb (ix2 k q) = ix2 k q := by
    funext a
    apply Fin.ext
    match a with
    | ⟨0, _⟩ => show win0_1.index t 0 * 10 + 1 * k.val = k.val; rw [e2]; omega
    | ⟨1, _⟩ => show win0_1.index t 1 * 10 + 1 * q.val = q.val; rw [e3]; omega
  rw [he, weight_entry]
  exact LibDotGeneral2.dotGeneral_nn_apply _ none .single _ _ k q

/-- What point `t` writes back is tile `t` of the specification. -/
theorem flushed_eq (c : Dev nD) (t : Fin cfg0.N) :
    (dats m 0 c).flushed 2 t = ((cfg0.win 2).blk t).view.read (Elt Ideal)
      (FoldedProduct.result (m ((c : Thread nD τ).loc main_arg0)) (m ((c : Thread nD τ).loc main_arg1)) (m ((c : Thread nD τ).loc main_arg3))) := by
  rw [flushed2]
  unfold out0_2
  rw [View.canon_unit_zero hz]
  simp only [View.ld_unit_zero (S := S4096x10) hz, View.ld_unit_zero (S := S10x10) hz]
  obtain ⟨-, -, -, -, e4, e5⟩ := idx_facts t
  funext y
  show k0_pay1 (iblk m c 0 t) (iblk m c 1 t) y = FoldedProduct.result _ _ _ (((cfg0.win 2).blk t).view.emb y)
  refine (tile_at (iblk m c 0 t) (iblk m c 1 t) y).trans ?_
  unfold FoldedProduct.result
  refine Finset.sum_congr rfl fun k _ => ?_
  have hq : (((cfg0.win 2).blk t).view.emb y) 1 = y 1 :=
    Fin.ext (by show win0_2.index t 1 * 10 + 1 * (y 1).val = (y 1).val; rw [e5]; omega)
  rw [row_read m c t (y 0) k (ix2 ((((cfg0.win 2).blk t).view.emb y) 0) k)
      (by show win0_2.index t 0 * 4096 + 1 * (y 0).val = _; rw [e4]; omega) rfl,
    weight_read m c t k (y 1), hq]

/-- An index of the result array is in point `t`'s tile iff each coordinate is in the tile's range on its axis. -/
theorem mem_blk (t : Fin cfg0.N) (i : S2097152x10.Idx) :
    i ∈ ((cfg0.win 2).blk t).view.set ↔ ∀ a : Fin 2, win0_2.index t a * S4096x10.size a ≤ (i a).val
      ∧ (i a).val < win0_2.index t a * S4096x10.size a + S4096x10.size a := by
  show i ∈ ((View.whole main_v1).slice (win0_2.rect t)).set ↔ _
  rw [View.set_slice_whole, Rect.mem_set_unit]
  exact Iff.rfl

/-- The 512 tiles cover the rows: row `r` is in the tile of point `r / 4096`. -/
theorem cover (i : S2097152x10.Idx) :
    ∃ t : Fin cfg0.N, (cfg0.win 2).flush t = true ∧ i ∈ ((cfg0.win 2).blk t).view.set := by
  have hi0 : (i 0).val < 2097152 := (i 0).isLt
  have hi1 : (i 1).val < 10 := (i 1).isLt
  have hN : cfg0.N = 512 := N_0
  have ht : (i 0).val / 4096 < cfg0.N := by rw [hN]; omega
  obtain ⟨-, -, -, -, e4, e5⟩ := idx_facts ⟨(i 0).val / 4096, ht⟩
  refine ⟨⟨(i 0).val / 4096, ht⟩, flush0_2 _, ?_⟩
  rw [mem_blk]
  intro a
  match a with
  | ⟨0, _⟩ =>
    show win0_2.index ⟨(i 0).val / 4096, ht⟩ 0 * 4096 ≤ (i 0).val
      ∧ (i 0).val < win0_2.index ⟨(i 0).val / 4096, ht⟩ 0 * 4096 + 4096
    rw [e4]
    show (i 0).val / 4096 * 4096 ≤ (i 0).val ∧ (i 0).val < (i 0).val / 4096 * 4096 + 4096
    omega
  | ⟨1, _⟩ =>
    show win0_2.index ⟨(i 0).val / 4096, ht⟩ 1 * 10 ≤ (i 1).val
      ∧ (i 1).val < win0_2.index ⟨(i 0).val / 4096, ht⟩ 1 * 10 + 10
    rw [e5]
    omega

/-- So the result array ends holding the specification. -/
theorem final (c : Dev nD) : (dats m 0 c).arrAt 2 cfg0.N
    = FoldedProduct.result (m ((c : Thread nD τ).loc main_arg0)) (m ((c : Thread nD τ).loc main_arg1))
        (m ((c : Thread nD τ).loc main_arg3)) :=
  (dats m 0 c).arrAt_eq_of_cover 2 _ (fun t _ => flushed_eq m c t) cover

/-- The run, read: the result array at the specification, every argument unchanged. -/
theorem run : θ_run defs (onTc (τ := τ) (main (F := Ideal))) ⟨m, fun _ => 0, ρ⟩ fun r => ∀ c : Dev nD,
      r.2.mem ((c : Thread nD τ).loc main_v1)
        = FoldedProduct.result (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.ReferenceIdeal.Hand

end
-- ==== Proof.lean ====
/-
  The kernel and the reference compute one function of the rows `x` and the two 10 × 10 weights `a`, `b`:

    result[i, j] = Σ_k x[i, k] · (Σ_l a[k, l] · b[l, j])        (Proof/Spec.lean)

  — the kernel by folding the weight in one gridless matrix product and multiplying the rows by it on the host
  (Proof/KernelValue.lean), the reference by folding the weight on the host and multiplying 512 row tiles by it in its
  region (Proof/RefValue.lean). At the ideal values each of the four products, read at an entry, is the plain sum over
  its contracted coordinate (Proof/LibMatmul2.lean, Proof/LibDotGeneral2.lean), so the two results agree term for
  term: no law of the extended reals joins them and the finiteness of the inputs is never used. The remaining two
  arguments (the second 10 × 10 weight of the list and the 20 × 20 one) are operands of no operation in either
  program. The three frames are the generated ones; the idealization rewrote nothing, so there is nothing to
  preserve.
-/
import proofs.«164632_g2000006822109569_pallasbulk_520_7_alg».proof.Defs
import proofs.«164632_g2000006822109569_pallasbulk_520_7_alg».proof.Proof.Gen.Kernel
import proofs.«164632_g2000006822109569_pallasbulk_520_7_alg».proof.Proof.Gen.Kernel.Frame
import proofs.«164632_g2000006822109569_pallasbulk_520_7_alg».proof.Proof.Gen.KernelIdeal
import proofs.«164632_g2000006822109569_pallasbulk_520_7_alg».proof.Proof.Gen.KernelIdeal.Frame
import proofs.«164632_g2000006822109569_pallasbulk_520_7_alg».proof.Proof.Gen.ReferenceIdeal
import proofs.«164632_g2000006822109569_pallasbulk_520_7_alg».proof.Proof.Gen.ReferenceIdeal.Frame
import proofs.«164632_g2000006822109569_pallasbulk_520_7_alg».proof.Proof.Gen.Pre_finite_inputs
import proofs.«164632_g2000006822109569_pallasbulk_520_7_alg».proof.Proof.KernelValue
import proofs.«164632_g2000006822109569_pallasbulk_520_7_alg».proof.Proof.RefValue
import Idealize.ShloMosaic.Adequacy
import Idealize.ShloMosaic.Init

noncomputable section

namespace Cert.Proof

open Idealize.ShloMosaic Idealize.ShloMosaic.TcCoe Idealize.SL.Sem

/-- Each program terminates without a fault and leaves its arguments as they were: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both programs end with the result array at the rows times the folded weight: the kernel's host product of the rows
    with its region's product is that function entry by entry, and the reference's 512 tiles fill the array with it. -/
theorem algebraic : Cert.algebraic_KernelIdeal_ReferenceIdeal := by
  intro m ρ m' ρ' _ hagree
  refine ⟨fun c => FoldedProduct.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run (F := Ideal) m ρ)
    exact Cert.KernelIdeal.Hand.tail_result _ _ _
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
